-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x64 : Shape := ⟨2, ![128, 64]⟩
abbrev S64x64 : Shape := ⟨2, ![64, 64]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S50000x128 .f32) (main_arg1 : FVec F S128x64 .f32) (main_arg2 : FVec F S64x64 .f32) (main_arg3 : IVec S800000 32) (main_arg4 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S50000x128 : Shape := ⟨2, ![50000, 128]⟩
abbrev S128x64 : Shape := ⟨2, ![128, 64]⟩
abbrev S64x64 : Shape := ⟨2, ![64, 64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S5000x128 : Shape := ⟨2, ![5000, 128]⟩
abbrev S5000x1 : Shape := ⟨2, ![5000, 1]⟩
abbrev S5000x64 : Shape := ⟨2, ![5000, 64]⟩
abbrev S800000x64 : Shape := ⟨2, ![800000, 64]⟩

abbrev nBuf : Space → Nat
  | .hbm => 52
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S128x64, .f32⟩
  | .hbm, ⟨2, _⟩ => ⟨S64x64, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S50000x1, .f32⟩
  | .hbm, ⟨16, _⟩ => ⟨S_, .f32⟩
  | .hbm, ⟨17, _⟩ => ⟨S50000x1, .f32⟩
  | .hbm, ⟨18, _⟩ => ⟨S50000x1, .f32⟩
  | .hbm, ⟨19, _⟩ => ⟨S50000x64, .bf16⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .bf16⟩
  | .hbm, ⟨29, _⟩ => ⟨S800000x64, .f32⟩
  | .hbm, ⟨30, _⟩ => ⟨S_, .f32⟩
  | .hbm, ⟨31, _⟩ => ⟨S50000x64, .f32⟩
  | .hbm, ⟨32, _⟩ => ⟨S800000x1, .i32⟩
  | .hbm, ⟨33, _⟩ => ⟨S50000x64, .f32⟩
  | .hbm, ⟨34, _⟩ => ⟨S50000x64, .bf16⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .bf16⟩
  | .hbm, ⟨44, _⟩ => ⟨S800000x64, .f32⟩
  | .hbm, ⟨45, _⟩ => ⟨S_, .f32⟩
  | .hbm, ⟨46, _⟩ => ⟨S50000x64, .f32⟩
  | .hbm, ⟨47, _⟩ => ⟨S800000x1, .i32⟩
  | .hbm, ⟨48, _⟩ => ⟨S50000x64, .f32⟩
  | .hbm, ⟨49, _⟩ => ⟨S_, .f32⟩
  | .hbm, ⟨50, _⟩ => ⟨S50000x64, .f32⟩
  | .hbm, ⟨51, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S64x64, .f32⟩
  | .local _ .vmem, ⟨10, _⟩ => ⟨S5000x1, .f32⟩
  | .local _ .vmem, ⟨11, _⟩ => ⟨S5000x1, .f32⟩
  | .local _ .vmem, ⟨12, _⟩ => ⟨S5000x64, .bf16⟩
  | .local _ .vmem, ⟨13, _⟩ => ⟨S5000x64, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call1_cst : Ref sig .tc := ⟨.hbm, 49, rfl⟩
abbrev main_call1_v0 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .bf16 = 32 ∨ (Rect.block (s := S50000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .bf16 = 32 ∨ (Rect.block (s := S50000x64) S5000x64.size (cc1_transform_3 i) (hinb1_3 i)).WholeWords (EltTy.packing .bf16)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x64 : Shape := ⟨2, ![128, 64]⟩
abbrev S64x64 : Shape := ⟨2, ![64, 64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S800000x64 : Shape := ⟨2, ![800000, 64]⟩

abbrev nBuf : Space → Nat
  | .hbm => 78
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x64, .f32⟩
  | .hbm, ⟨2, _⟩ => ⟨S64x64, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S50000x1, .f32⟩
  | .hbm, ⟨16, _⟩ => ⟨S_, .f32⟩
  | .hbm, ⟨17, _⟩ => ⟨S50000x1, .f32⟩
  | .hbm, ⟨18, _⟩ => ⟨S50000x1, .f32⟩
  | .hbm, ⟨19, _⟩ => ⟨S50000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x1, .f32⟩
  | .hbm, ⟨38, _⟩ => ⟨S800000x64, .f32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S_, .f32⟩
  | .hbm, ⟨45, _⟩ => ⟨S50000x64, .f32⟩
  | .hbm, ⟨46, _⟩ => ⟨S50000x64, .f32⟩
  | .hbm, ⟨47, _⟩ => ⟨S_, .f32⟩
  | .hbm, ⟨48, _⟩ => ⟨S50000x64, .f32⟩
  | .hbm, ⟨49, _⟩ => ⟨S50000x64, .f32⟩
  | .hbm, ⟨50, _⟩ => ⟨S50000x64, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x64, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x1, .f32⟩
  | .hbm, ⟨69, _⟩ => ⟨S800000x64, .f32⟩
  | .hbm, ⟨70, _⟩ => ⟨S800000x64, .f32⟩
  | .hbm, ⟨71, _⟩ => ⟨S_, .f32⟩
  | .hbm, ⟨72, _⟩ => ⟨S50000x64, .f32⟩
  | .hbm, ⟨73, _⟩ => ⟨S800000x1, .i32⟩
  | .hbm, ⟨74, _⟩ => ⟨S50000x64, .f32⟩
  | .hbm, ⟨75, _⟩ => ⟨S_, .f32⟩
  | .hbm, ⟨76, _⟩ => ⟨S50000x64, .f32⟩
  | .hbm, ⟨77, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_cst : Ref sig .tc := ⟨.hbm, 44, rfl⟩
abbrev main_call1_v0 : Ref sig .tc := ⟨.hbm, 45, rfl⟩
abbrev main_v28 : Ref sig .tc := ⟨.hbm, 46, rfl⟩
abbrev main_call2_cst : Ref sig .tc := ⟨.hbm, 47, rfl⟩
abbrev main_call2_v0 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call3_cst : Ref sig .tc := ⟨.hbm, 75, rfl⟩
abbrev main_call3_v0 : Ref sig .tc := ⟨.hbm, 76, rfl⟩
abbrev main_v50 : Ref sig .tc := ⟨.hbm, 77, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  gather_S50000x1_S800000x1_S800000x1_1_0_n_n_0_1_11_wf : GatherDims.WF S50000x1 S800000x1 S800000x1 [1] [0] [] [0] [] 1 ![1, 1]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KRun.lean ====
/-
  The idealized kernel's run with its RESULT named. The program is two kernel regions among stretches of host
  operations; its generated frame folds the buffer contents through every stretch and region (`Gen.W0` … `Gen.W8`)
  and reads, of the last boundary's contents, only the argument arrays. Here the same run is read at EVERY unscoped
  buffer: every weakly fair execution terminates with each such buffer at the last boundary's contents `Gen.W8`,
  and in particular the result array and the five arguments.
-/
import proofs.«168087_j18202071400723_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every unscoped buffer of every
    core ends at the last boundary's contents: the segments' run launched as the generated frame launches it, the
    last thread state read against the final state at every buffer it holds. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The run read at the result array and the arguments: the result at the last boundary's contents, the arguments as
    launched. -/
theorem run_result : θ_run defs (onTc (τ := τ) (main (F := F))) ⟨m, fun _ => 0, ρ⟩ (fun r => ∀ c : Dev nD,
      r.2.mem ((c.tc : Thread nD τ).loc main_v32) = W8 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v32 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c)⟩)
    (run_all m ρ)

end Cert.KernelIdeal.KRun

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.Pay.lean ====
/-
  The two kernel bodies' stored values, read at an entry on the extended reals.
  The first body stores, at row `r` and column `j` of its block, the product row·column of the feature block with the
  weight matrix, times the row's scale: `(Σₖ x (r, k) · w (k, j)) · s (r, 0)` — the format changes are the identity and
  the accumulator is zero. The second body does the same after clipping the left operand at zero from below:
  `(Σₖ max (x (r, k)) 0 · w (k, j)) · s (r, 0)`.
-/
import proofs.«168087_j18202071400723_2_alg».proof.Proof.Gen.KernelIdeal.Skeleton
import proofs.«168087_j18202071400723_2_alg».proof.Proof.LibPlainMatmul
import proofs.«168087_j18202071400723_2_alg».proof.Proof.LibKeepdims
import Idealize.ShloMosaic.Lib.Pipeline.Value

noncomputable section

open scoped BigOperators

namespace Cert.KernelIdeal.Pay

open Cert.KernelIdeal Cert.KernelIdeal.Gen
open Idealize.ShloMosaic Idealize.ShloMosaic.ValueIdx

/-- The first body's dimension numbers are the plain matrix product's. -/
theorem dot0_plain : dot_S5000x128_S128x64_S5000x64_1_0_0_1_n_n = DotDims.plain 5000 128 64 := rfl
/-- The second body's dimension numbers are the plain matrix product's. -/
theorem dot1_plain : dot_S5000x64_S64x64_S5000x64_1_0_0_1_n_n = DotDims.plain 5000 64 64 := rfl

/-- The row scale as the bodies apply it: the `[5000, 1]` column, cast to its own shape and broadcast along the columns,
    reads at `(r, j)` the column's entry of row `r`. -/
theorem scale_apply (s : FVec Ideal S5000x1 .f32) (r : Fin 5000) (j : Fin 64) :
    broadcastTo S5000x64 (shapeCast S5000x1 s shapeCasts_S5000x1_S5000x1) broadcasts_S5000x1_S5000x64 (ix2 r j)
      = s (ix2 r (0 : Fin 1)) := by
  rw [shapeCast_self]
  exact Cert.LibKeepdims.broadcastTo_a1_ab_apply s broadcasts_S5000x1_S5000x64 r j

/-- The first body's stored value at `(r, j)`. -/
theorem pay0_apply (x : FVec Ideal S5000x128 .f32) (w : FVec Ideal S128x64 .f32) (s : FVec Ideal S5000x1 .f32)
    (r : Fin 5000) (j : Fin 64) :
    k0_pay1 (F := Ideal) x w s (ix2 r j) = (∑ k : Fin 128, x (ix2 r k) * w (ix2 k j)) * s (ix2 r (0 : Fin 1)) := by
  unfold k0_pay1
  show FloatOps.matmul dot_S5000x128_S128x64_S5000x64_1_0_0_1_n_n none (truncf .bf16 x bitsLt_bf16_f32)
        (truncf .bf16 w bitsLt_bf16_f32) (constant S5000x64 .f32 0x00000000#32) (ix2 r j)
      * broadcastTo S5000x64 (shapeCast S5000x1 s shapeCasts_S5000x1_S5000x1) broadcasts_S5000x1_S5000x64 (ix2 r j) = _
  refine congrArg₂ (· * ·) ?_ (scale_apply s r j)
  rw [dot0_plain]
  exact Cert.LibPlainMatmul.matmul_zero_apply none (truncf .bf16 x bitsLt_bf16_f32) (truncf .bf16 w bitsLt_bf16_f32) r j

/-- The second body's stored value at `(r, j)`. -/
theorem pay1_apply (x : FVec Ideal S5000x64 .f32) (w : FVec Ideal S64x64 .f32) (s : FVec Ideal S5000x1 .f32)
    (r : Fin 5000) (j : Fin 64) :
    k1_pay1 (F := Ideal) x w s (ix2 r j)
      = (∑ k : Fin 64, max (x (ix2 r k)) (Ideal.ofBits .f32 0x00000000#32) * w (ix2 k j)) * s (ix2 r (0 : Fin 1)) := by
  unfold k1_pay1
  show FloatOps.matmul dot_S5000x64_S64x64_S5000x64_1_0_0_1_n_n none
        (truncf .bf16 (maximumf (shapeCast S5000x64 x shapeCasts_S5000x64_S5000x64)
          (broadcast S5000x64 (Scalar.ofBits (F := Ideal) .f32 0x00000000#32))) bitsLt_bf16_f32)
        (truncf .bf16 w bitsLt_bf16_f32) (constant S5000x64 .f32 0x00000000#32) (ix2 r j)
      * broadcastTo S5000x64 (shapeCast S5000x1 s shapeCasts_S5000x1_S5000x1) broadcasts_S5000x1_S5000x64 (ix2 r j) = _
  refine congrArg₂ (· * ·) ?_ (scale_apply s r j)
  rw [dot1_plain, shapeCast_self]
  exact Cert.LibPlainMatmul.matmul_zero_apply none _ (truncf .bf16 w bitsLt_bf16_f32) r j

end Cert.KernelIdeal.Pay

end
-- ==== Proof.Region0.lean ====
/-
  Region 0's output array after its ten grid points, as ONE function of the arrays the region finds: the feature rows times the weight matrix, each row scaled by its own scale.
  Point `t` reads rows `5000·t … 5000·t + 4999` of the left operand and of the scale column, the whole weight matrix,
  and writes back the same rows of the output; the ten row blocks cover the output, so the array ends at the function
  `rowsOut` below, entry by entry:  out (n, j) = (Σₖ lhs (n, k) · W (k, j)) · scale (n, 0).
-/
import proofs.«168087_j18202071400723_2_alg».proof.Proof.Gen.KernelIdeal.Frame
import proofs.«168087_j18202071400723_2_alg».proof.Proof.Pay
import Idealize.ShloMosaic.Lib.Pipeline.Value
import Idealize.ShloMosaic.PureOps.Ideal

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The product of two entries, and an entry clipped at zero from below, typed on the extended reals (an array's entry
    type is the extended reals only after unfolding the array's buffer type). -/
abbrev mulE (a b : EReal) : EReal := a * b
abbrev clipE (a : EReal) : EReal := max a (Ideal.ofBits .f32 0x00000000#32)

theorem zero_offsets : (![0, 0] : Fin 2 → Nat) = fun _ => 0 := funext fun a => by fin_cases a <;> rfl

/-- The region's output as a function of its three input arrays, entry by entry. -/
def rowsOut (X : S50000x128.Idx → Elt Ideal .f32) (W : S128x64.Idx → Elt Ideal .f32) (N : S50000x1.Idx → Elt Ideal .f32) :
    S50000x64.Idx → Elt Ideal .bf16 :=
  fun i => (∑ k : Fin 128, X (ix2 (i 0) k) * W (ix2 k (i 1))) * N (ix2 (i 0) (0 : Fin 1))

/-- The printed index maps over the ten grid points: the left operand, the scale column and the output move together
    down the rows, one block of 5000 rows per point; the weight matrix stays; no window moves along the columns. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 9 :=
  (by decide +kernel : ∀ t : Fin grid0.N, _)

/-- Every one of the ten row blocks of the output is some point's. -/
theorem index_onto : ∀ q : Fin 10, ∃ t : Fin cfg0.N, win0_3.index t = ![q.val, 0] :=
  (by decide +kernel : ∀ q : Fin 10, ∃ t : Fin grid0.N, win0_3.index t = ![q.val, 0])

/-- WHAT POINT `t` WRITES BACK is block `t` of `rowsOut` of the arrays as the region finds them. -/
theorem flushed_eq (c : Dev nD) (t : Fin cfg0.N) :
    (dat0 V c).flushed 3 t
      = ((cfg0.win 3).blk t).view.read (Elt Ideal) (rowsOut (V c main_arg0) (V c main_arg1) (V c main_v7)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x64) zero_offsets,
    View.ld_unit_zero (S := S5000x1) zero_offsets]
  obtain ⟨e0, e1, e2, e3, e4, e5, e6, e7⟩ := index_facts t
  funext y
  obtain ⟨r, j, rfl⟩ : ∃ (r : Fin 5000) (j : Fin 64), y = ix2 r j := ⟨y 0, y 1, eq_ix2 y⟩
  refine (Pay.pay0_apply (iblk0 V c 0 t) (iblk0 V c 1 t) (iblk0 V c 2 t) r j).trans ?_
  show mulE (∑ k : Fin 128, mulE (V c main_arg0 (((cfg0.win 0).blk t).view.emb (ix2 r k)))
          (V c main_arg1 (((cfg0.win 1).blk t).view.emb (ix2 k j))))
        (V c main_v7 (((cfg0.win 2).blk t).view.emb (ix2 r (0 : Fin 1))))
      = rowsOut (V c main_arg0) (V c main_arg1) (V c main_v7) (((cfg0.win 3).blk t).view.emb (ix2 r j))
  unfold rowsOut
  refine congrArg₂ mulE (Finset.sum_congr rfl fun k _ => congrArg₂ mulE (congrArg (V c main_arg0) ?_) (congrArg (V c main_arg1) ?_))
    (congrArg (V c main_v7) ?_)
  · funext a; apply Fin.ext
    match a with
    | ⟨0, _⟩ => show win0_0.index t (0 : Fin 2) * 5000 + 1 * r.val = win0_3.index t (0 : Fin 2) * 5000 + 1 * r.val; omega
    | ⟨1, _⟩ => show win0_0.index t (1 : Fin 2) * 128 + 1 * k.val = k.val; omega
  · funext a; apply Fin.ext
    match a with
    | ⟨0, _⟩ => show win0_1.index t (0 : Fin 2) * 128 + 1 * k.val = k.val; omega
    | ⟨1, _⟩ => show win0_1.index t (1 : Fin 2) * 64 + 1 * j.val = win0_3.index t (1 : Fin 2) * 64 + 1 * j.val; omega
  · funext a; apply Fin.ext
    match a with
    | ⟨0, _⟩ => show win0_2.index t (0 : Fin 2) * 5000 + 1 * r.val = win0_3.index t (0 : Fin 2) * 5000 + 1 * r.val; omega
    | ⟨1, _⟩ => show win0_2.index t (1 : Fin 2) * 1 + 1 * 0 = 0; omega

/-- An entry of the output array is in point `t`'s block iff each coordinate is in the block's range on its axis. -/
theorem mem_block (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v8).slice (win0_3.rect t)).set ↔ _
  rw [View.set_slice_whole, Rect.mem_set_unit]
  exact Iff.rfl

/-- Row `n` of the output is written back by point `n / 5000`: the ten blocks cover the array. -/
theorem cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- THE OUTPUT ARRAY after the region's ten points is `rowsOut` of the arrays the region was entered with. -/
theorem final (c : Dev nD) :
    (dat0 V c).arrAt 3 cfg0.N = rowsOut (V c main_arg0) (V c main_arg1) (V c main_v7) :=
  (dat0 V c).arrAt_eq_of_cover 3 _ (fun t _ => flushed_eq V c t) cover

end Cert.KernelIdeal.Region0

end
-- ==== Proof.Region1.lean ====
/-
  Region 1's output array after its ten grid points, as ONE function of the arrays the region finds: the rows of the aggregated features, clipped at zero from below, times the weight matrix, each row scaled by its own scale.
  Point `t` reads rows `5000·t … 5000·t + 4999` of the left operand and of the scale column, the whole weight matrix,
  and writes back the same rows of the output; the ten row blocks cover the output, so the array ends at the function
  `rowsOut` below, entry by entry:  out (n, j) = (Σₖ lhs (n, k) · W (k, j)) · scale (n, 0).
-/
import proofs.«168087_j18202071400723_2_alg».proof.Proof.Gen.KernelIdeal.Frame
import proofs.«168087_j18202071400723_2_alg».proof.Proof.Pay
import Idealize.ShloMosaic.Lib.Pipeline.Value
import Idealize.ShloMosaic.PureOps.Ideal

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The product of two entries, and an entry clipped at zero from below, typed on the extended reals (an array's entry
    type is the extended reals only after unfolding the array's buffer type). -/
abbrev mulE (a b : EReal) : EReal := a * b
abbrev clipE (a : EReal) : EReal := max a (Ideal.ofBits .f32 0x00000000#32)

theorem zero_offsets : (![0, 0] : Fin 2 → Nat) = fun _ => 0 := funext fun a => by fin_cases a <;> rfl

/-- The region's output as a function of its three input arrays, entry by entry. -/
def rowsOut (X : S50000x64.Idx → Elt Ideal .f32) (W : S64x64.Idx → Elt Ideal .f32) (N : S50000x1.Idx → Elt Ideal .f32) :
    S50000x64.Idx → Elt Ideal .bf16 :=
  fun i => (∑ k : Fin 64, max (X (ix2 (i 0) k)) (Ideal.ofBits .f32 0x00000000#32) * W (ix2 k (i 1))) * N (ix2 (i 0) (0 : Fin 1))

/-- The printed index maps over the ten grid points: the left operand, the scale column and the output move together
    down the rows, one block of 5000 rows per point; the weight matrix stays; no window moves along the columns. -/
theorem index_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = win1_3.index t (0 : Fin 2) ∧ win1_2.index t (1 : Fin 2) = 0
    ∧ win1_3.index t (1 : Fin 2) = 0 ∧ win1_3.index t (0 : Fin 2) ≤ 9 :=
  (by decide +kernel : ∀ t : Fin grid1.N, _)

/-- Every one of the ten row blocks of the output is some point's. -/
theorem index_onto : ∀ q : Fin 10, ∃ t : Fin cfg1.N, win1_3.index t = ![q.val, 0] :=
  (by decide +kernel : ∀ q : Fin 10, ∃ t : Fin grid1.N, win1_3.index t = ![q.val, 0])

/-- WHAT POINT `t` WRITES BACK is block `t` of `rowsOut` of the arrays as the region finds them. -/
theorem flushed_eq (c : Dev nD) (t : Fin cfg1.N) :
    (dat1 V c).flushed 3 t
      = ((cfg1.win 3).blk t).view.read (Elt Ideal) (rowsOut (V c main_v19) (V c main_arg2) (V c main_v7)) := by
  show (cfg1.win 3).cut (grid1.coords t) ((dat1 V c).after 3 t) = _
  rw [after1_3]
  unfold out1_3
  rw [View.canon_unit_zero zero_offsets]
  simp only [View.ld_unit_zero (S := S5000x64) zero_offsets, View.ld_unit_zero (S := S64x64) zero_offsets,
    View.ld_unit_zero (S := S5000x1) zero_offsets]
  obtain ⟨e0, e1, e2, e3, e4, e5, e6, e7⟩ := index_facts t
  funext y
  obtain ⟨r, j, rfl⟩ : ∃ (r : Fin 5000) (j : Fin 64), y = ix2 r j := ⟨y 0, y 1, eq_ix2 y⟩
  refine (Pay.pay1_apply (iblk1 V c 0 t) (iblk1 V c 1 t) (iblk1 V c 2 t) r j).trans ?_
  show mulE (∑ k : Fin 64, mulE (clipE (V c main_v19 (((cfg1.win 0).blk t).view.emb (ix2 r k))))
          (V c main_arg2 (((cfg1.win 1).blk t).view.emb (ix2 k j))))
        (V c main_v7 (((cfg1.win 2).blk t).view.emb (ix2 r (0 : Fin 1))))
      = rowsOut (V c main_v19) (V c main_arg2) (V c main_v7) (((cfg1.win 3).blk t).view.emb (ix2 r j))
  unfold rowsOut
  refine congrArg₂ mulE (Finset.sum_congr rfl fun k _ => congrArg₂ mulE (congrArg clipE (congrArg (V c main_v19) ?_)) (congrArg (V c main_arg2) ?_))
    (congrArg (V c main_v7) ?_)
  · funext a; apply Fin.ext
    match a with
    | ⟨0, _⟩ => show win1_0.index t (0 : Fin 2) * 5000 + 1 * r.val = win1_3.index t (0 : Fin 2) * 5000 + 1 * r.val; omega
    | ⟨1, _⟩ => show win1_0.index t (1 : Fin 2) * 64 + 1 * k.val = k.val; omega
  · funext a; apply Fin.ext
    match a with
    | ⟨0, _⟩ => show win1_1.index t (0 : Fin 2) * 64 + 1 * k.val = k.val; omega
    | ⟨1, _⟩ => show win1_1.index t (1 : Fin 2) * 64 + 1 * j.val = win1_3.index t (1 : Fin 2) * 64 + 1 * j.val; omega
  · funext a; apply Fin.ext
    match a with
    | ⟨0, _⟩ => show win1_2.index t (0 : Fin 2) * 5000 + 1 * r.val = win1_3.index t (0 : Fin 2) * 5000 + 1 * r.val; omega
    | ⟨1, _⟩ => show win1_2.index t (1 : Fin 2) * 1 + 1 * 0 = 0; omega

/-- An entry of the output array is in point `t`'s block iff each coordinate is in the block's range on its axis. -/
theorem mem_block (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v20).slice (win1_3.rect t)).set ↔ _
  rw [View.set_slice_whole, Rect.mem_set_unit]
  exact Iff.rfl

/-- Row `n` of the output is written back by point `n / 5000`: the ten blocks cover the array. -/
theorem cover (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := index_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- THE OUTPUT ARRAY after the region's ten points is `rowsOut` of the arrays the region was entered with. -/
theorem final (c : Dev nD) :
    (dat1 V c).arrAt 3 cfg1.N = rowsOut (V c main_v19) (V c main_arg2) (V c main_v7) :=
  (dat1 V c).arrAt_eq_of_cover 3 _ (fun t _ => flushed_eq V c t) cover

end Cert.KernelIdeal.Region1

end
-- ==== Proof.FoldDefs.lean ====
/-
  The host's functions between the two kernel regions of the idealized kernel, and the kernel's value named through
  them: the gathers' start indices, the per-node scale, the sum of per-edge rows at the edges' destinations, a
  region's rows gathered along the edges' sources, the clip at zero.
-/
import proofs.«168087_j18202071400723_2_alg».proof.Proof.Region0
import proofs.«168087_j18202071400723_2_alg».proof.Proof.Region1
import Idealize.ShloMosaic.PureOps.Ideal

noncomputable section

namespace Cert.KernelIdeal.Fold

open Cert.KernelIdeal Cert.KernelIdeal.Gen
open Idealize.ShloMosaic Idealize.ShloMosaic.TcCoe Idealize.SL.Sem

/-! ## The host's functions between the regions -/

/-- The gathers' start indices: an edge's source, a negative one counted from the end, as a column. -/
def startRows (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The zero array the sums start from and the clip compares with. -/
def zeros : FVec Ideal S50000x64 .f32 :=
  broadcastInDim S50000x64 ![] bcast_S_S50000x64 (constant (F := Ideal) S_ .f32 0x00000000#32)

/-- The per-node scale: the number of edges into the node, at least one, to the power −1/2, as a column. -/
def norm (dst : IVec S800000 32) : FVec Ideal S50000x1 .f32 :=
  Host.powf (F := Ideal)
    (broadcastInDim S50000x1 ![0] bcast_S50000_S50000x1_0
      (maximumf (F := Ideal) (broadcastInDim S50000 ![] bcast_S_S50000 (id (constant (F := Ideal) S_ .f32 0x3F800000#32)))
        (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 dst)
          (broadcastInDim S800000 ![] bcast_S_S800000 (constant (F := Ideal) S_ .f32 0x3F800000#32)))))
    (broadcastInDim S50000x1 ![] bcast_S_S50000x1 (constant (F := Ideal) S_ .f32 0xBF000000#32))

/-- The per-edge rows summed at the edges' destinations. -/
def aggregate (dst : IVec S800000 32) (T : FVec Ideal S800000x64 .f32) : FVec Ideal S50000x64 .f32 :=
  Host.scatterAdd (F := Ideal) scatter_S50000x64_S800000x1_S800000x64_1_0_0_1 zeros
    (broadcastInDim S800000x1 ![0] bcast_S800000_S800000x1_0 dst) T

/-- A region's output rows gathered along the edges' sources. -/
def gathered (R : FVec Ideal S50000x64 .bf16) (src : IVec S800000 32) : FVec Ideal S800000x64 .f32 :=
  extf .f32 (Host.gather gather_S50000x64_S800000x1_S800000x64_1_0_n_n_0_1_164 R (startRows src)) bitsLt_bf16_f32

/-- The clip at zero from below. -/
def relu (A : FVec Ideal S50000x64 .f32) : FVec Ideal S50000x64 .f32 := maximumf (F := Ideal) A zeros

/-- THE KERNEL'S VALUE: two layers, each the region's scaled product gathered along the sources and summed at the
    destinations, the second on the first's sum clipped at zero (inside region 1), the last sum clipped on the host. -/
def kernelValue (feat : FVec Ideal S50000x128 .f32) (W1 : FVec Ideal S128x64 .f32) (W2 : FVec Ideal S64x64 .f32)
    (src dst : IVec S800000 32) : FVec Ideal S50000x64 .f32 :=
  relu (aggregate dst (gathered
    (Region1.rowsOut (aggregate dst (gathered (Region0.rowsOut feat W1 (norm dst)) src)) W2 (norm dst)) src))

end Cert.KernelIdeal.Fold

end
-- ==== Proof.Fold.lean ====
/-
  The idealized kernel's result read back through the program's boundaries. The program is three stretches of host
  operations (the in-degrees; their clamp at one, a called function; the power −1/2), region 0, a stretch (gather
  along the sources, sum at the destinations), region 1, and two more stretches (gather and sum again; the clip at
  zero, a called function). Each stretch is read ONCE, from any contents it may start from; the boundaries' contents
  then chain: a buffer a stretch or a region does not write keeps its contents, a region's output array ends at the
  region's function of its input arrays (`Region0.final`, `Region1.final`).
-/
import proofs.«168087_j18202071400723_2_alg».proof.Proof.Gen.KernelIdeal.Frame
import proofs.«168087_j18202071400723_2_alg».proof.Proof.FoldDefs
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-! ## The two called functions' stretches, from any contents -/

/-- The clamp at one from below, from any contents `V`: the maximum of the splat of `V`'s bound with `V`'s operand. -/
theorem clip_result (V : Valuation τ sig (Elt Ideal)) :
    StableHlo.after (hostOps0_1 (F := Ideal)) V (Proc.devRef .tc main_v4)
      = maximumf (F := Ideal) (φ := .f32) (broadcastInDim S50000 ![] bcast_S_S50000 (id (V (Proc.devRef .tc main_cst_1) : FVec Ideal S_ .f32)))
          (V (Proc.devRef .tc main_v3) : FVec Ideal S50000 .f32) := by
  after_results_simp
  rfl

/-- The clip at zero from below, from any contents `V`. -/
theorem relu_result (V : Valuation τ sig (Elt Ideal)) :
    StableHlo.after (hostOps2_1 (F := Ideal)) V (Proc.devRef .tc main_v32)
      = maximumf (F := Ideal) (φ := .f32) (V (Proc.devRef .tc main_v31) : FVec Ideal S50000x64 .f32)
          (broadcastInDim S50000x64 ![] bcast_S_S50000x64 (constant (F := Ideal) S_ .f32 0x00000000#32)) := by
  after_results_simp
  rfl

/-- The in-degrees and the bound, after the first stretch from any contents. -/
theorem deg_result (V : Valuation τ sig (Elt Ideal)) :
    StableHlo.after (hostOps0 (F := Ideal)) V (Proc.devRef .tc main_v3)
      = Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 (V (Proc.devRef .tc main_arg4) : IVec S800000 32))
          (broadcastInDim S800000 ![] bcast_S_S800000 (constant (F := Ideal) S_ .f32 0x3F800000#32)) := by
  after_results_simp
theorem bound_result (V : Valuation τ sig (Elt Ideal)) :
    StableHlo.after (hostOps0 (F := Ideal)) V (Proc.devRef .tc main_cst_1) = constant (F := Ideal) S_ .f32 0x3F800000#32 := by
  after_results_simp

/-- The power −1/2 of the clamped in-degrees as a column, after the third stretch from any contents. -/
theorem pow_result (V : Valuation τ sig (Elt Ideal)) :
    StableHlo.after (hostOps0_2 (F := Ideal)) V (Proc.devRef .tc main_v7)
      = Host.powf (F := Ideal) (broadcastInDim S50000x1 ![0] bcast_S50000_S50000x1_0 (V (Proc.devRef .tc main_v4) : FVec Ideal S50000 .f32))
          (broadcastInDim S50000x1 ![] bcast_S_S50000x1 (constant (F := Ideal) S_ .f32 0xBF000000#32)) := by
  after_results_simp

/-- The first layer's sum, after the stretch between the regions from any contents `V`: region 0's output rows
    gathered along the sources and summed at the destinations. -/
theorem sum1_result (V : Valuation τ sig (Elt Ideal)) :
    StableHlo.after (hostOps1 (F := Ideal)) V (Proc.devRef .tc main_v19)
      = aggregate (V (Proc.devRef .tc main_arg4) : IVec S800000 32)
          (gathered (V (Proc.devRef .tc main_v8) : FVec Ideal S50000x64 .bf16) (V (Proc.devRef .tc main_arg3) : IVec S800000 32)) := by
  unfold aggregate gathered startRows zeros
  after_results_simp

/-- That stretch writes neither the second weight matrix, nor the edges' arrays, nor the scale column. -/
theorem sum1_keeps_arg2 (V : Valuation τ sig (Elt Ideal)) :
    StableHlo.after (hostOps1 (F := Ideal)) V (Proc.devRef .tc main_arg2) = V (Proc.devRef .tc main_arg2) := by after_results_simp
theorem sum1_keeps_arg3 (V : Valuation τ sig (Elt Ideal)) :
    StableHlo.after (hostOps1 (F := Ideal)) V (Proc.devRef .tc main_arg3) = V (Proc.devRef .tc main_arg3) := by after_results_simp
theorem sum1_keeps_arg4 (V : Valuation τ sig (Elt Ideal)) :
    StableHlo.after (hostOps1 (F := Ideal)) V (Proc.devRef .tc main_arg4) = V (Proc.devRef .tc main_arg4) := by after_results_simp
theorem sum1_keeps_norm (V : Valuation τ sig (Elt Ideal)) :
    StableHlo.after (hostOps1 (F := Ideal)) V (Proc.devRef .tc main_v7) = V (Proc.devRef .tc main_v7) := by after_results_simp

/-- The second layer's sum, after the stretch that follows region 1 from any contents `V`. -/
theorem sum2_result (V : Valuation τ sig (Elt Ideal)) :
    StableHlo.after (hostOps2 (F := Ideal)) V (Proc.devRef .tc main_v31)
      = aggregate (V (Proc.devRef .tc main_arg4) : IVec S800000 32)
          (gathered (V (Proc.devRef .tc main_v20) : FVec Ideal S50000x64 .bf16) (V (Proc.devRef .tc main_arg3) : IVec S800000 32)) := by
  unfold aggregate gathered startRows zeros
  after_results_simp

/-! ## The boundaries' contents -/

variable (m : (ℓ : Loc nD τ sig) → Buf (Elt Ideal) ℓ) (ρ : Dev nD → PrngReg) (c : Dev nD)

/-- At region 0's entry the arguments are as launched … -/
theorem W3_arg0 : W3 m ρ c (Proc.devRef .tc main_arg0) = m ((c : Thread nD τ).loc main_arg0) := by
  show StableHlo.after (hostOps0_2 (F := Ideal)) (StableHlo.after (hostOps0_1 (F := Ideal)) (StableHlo.after (hostOps0 (F := Ideal)) (W0 m ρ c))) (Proc.devRef .tc main_arg0) = _
  after_results_simp
theorem W3_arg1 : W3 m ρ c (Proc.devRef .tc main_arg1) = m ((c : Thread nD τ).loc main_arg1) := by
  show StableHlo.after (hostOps0_2 (F := Ideal)) (StableHlo.after (hostOps0_1 (F := Ideal)) (StableHlo.after (hostOps0 (F := Ideal)) (W0 m ρ c))) (Proc.devRef .tc main_arg1) = _
  after_results_simp
theorem W3_arg2 : W3 m ρ c (Proc.devRef .tc main_arg2) = m ((c : Thread nD τ).loc main_arg2) := by
  show StableHlo.after (hostOps0_2 (F := Ideal)) (StableHlo.after (hostOps0_1 (F := Ideal)) (StableHlo.after (hostOps0 (F := Ideal)) (W0 m ρ c))) (Proc.devRef .tc main_arg2) = _
  after_results_simp
theorem W3_arg3 : W3 m ρ c (Proc.devRef .tc main_arg3) = m ((c : Thread nD τ).loc main_arg3) := by
  show StableHlo.after (hostOps0_2 (F := Ideal)) (StableHlo.after (hostOps0_1 (F := Ideal)) (StableHlo.after (hostOps0 (F := Ideal)) (W0 m ρ c))) (Proc.devRef .tc main_arg3) = _
  after_results_simp
theorem W3_arg4 : W3 m ρ c (Proc.devRef .tc main_arg4) = m ((c : Thread nD τ).loc main_arg4) := by
  show StableHlo.after (hostOps0_2 (F := Ideal)) (StableHlo.after (hostOps0_1 (F := Ideal)) (StableHlo.after (hostOps0 (F := Ideal)) (W0 m ρ c))) (Proc.devRef .tc main_arg4) = _
  after_results_simp

/-- The scale column at region 0's entry is the scale of the destinations. -/
theorem W3_norm : W3 m ρ c (Proc.devRef .tc main_v7) = norm (m ((c : Thread nD τ).loc main_arg4)) := by
  show StableHlo.after (hostOps0_2 (F := Ideal)) (W2 m ρ c) (Proc.devRef .tc main_v7) = _
  rw [pow_result]
  show Host.powf (F := Ideal) (broadcastInDim S50000x1 ![0] bcast_S50000_S50000x1_0
        (StableHlo.after (hostOps0_1 (F := Ideal)) (W1 m ρ c) (Proc.devRef .tc main_v4))) _ = _
  rw [clip_result]
  show Host.powf (F := Ideal) (broadcastInDim S50000x1 ![0] bcast_S50000_S50000x1_0
        (maximumf (F := Ideal) (broadcastInDim S50000 ![] bcast_S_S50000
          (id (StableHlo.after (hostOps0 (F := Ideal)) (W0 m ρ c) (Proc.devRef .tc main_cst_1))))
          (StableHlo.after (hostOps0 (F := Ideal)) (W0 m ρ c) (Proc.devRef .tc main_v3)))) _ = _
  rw [bound_result, deg_result]
  unfold norm
  rfl

/-- Region 0 leaves its output at the scaled product of the features with the first weight matrix … -/
theorem W4_out : W4 m ρ c (Proc.devRef .tc main_v8)
    = Region0.rowsOut (m ((c : Thread nD τ).loc main_arg0)) (m ((c : Thread nD τ).loc main_arg1)) (norm (m ((c : Thread nD τ).loc main_arg4))) := by
  refine (W4_arr m ρ c 3).trans ?_
  rw [Region0.final (V3 m ρ) c]
  show Region0.rowsOut (W3 m ρ c (Proc.devRef .tc main_arg0)) (W3 m ρ c (Proc.devRef .tc main_arg1)) (W3 m ρ c (Proc.devRef .tc main_v7)) = _
  rw [W3_arg0, W3_arg1, W3_norm]
/-- … and every other buffer read later as it was. -/
theorem W4_arg2 : W4 m ρ c (Proc.devRef .tc main_arg2) = m ((c : Thread nD τ).loc main_arg2) :=
  (W4_of_ne m ρ c main_arg2 (by decide)).trans (W3_arg2 m ρ c)
theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_norm : W4 m ρ c (Proc.devRef .tc main_v7) = norm (m ((c : Thread nD τ).loc main_arg4)) :=
  ((W4_arr m ρ c 2).trans (((dat0 (V3 m ρ) c).arrAt_in 2 rfl _).trans (A_eq0 (V3 m ρ) c 2))).trans (W3_norm m ρ c)

/-- At region 1's entry its left operand is the first layer's sum … -/
theorem W5_sum : W5 m ρ c (Proc.devRef .tc main_v19)
    = aggregate (m ((c : Thread nD τ).loc main_arg4)) (gathered
        (Region0.rowsOut (m ((c : Thread nD τ).loc main_arg0)) (m ((c : Thread nD τ).loc main_arg1)) (norm (m ((c : Thread nD τ).loc main_arg4)))) (m ((c : Thread nD τ).loc main_arg3))) := by
  show StableHlo.after (hostOps1 (F := Ideal)) (W4 m ρ c) (Proc.devRef .tc main_v19) = _
  rw [sum1_result, W4_out, W4_arg3, W4_arg4]
/-- … and the buffers read later are as they were. -/
theorem W5_arg2 : W5 m ρ c (Proc.devRef .tc main_arg2) = m ((c : Thread nD τ).loc main_arg2) :=
  (sum1_keeps_arg2 (W4 m ρ c)).trans (W4_arg2 m ρ c)
theorem W5_arg3 : W5 m ρ c (Proc.devRef .tc main_arg3) = m ((c : Thread nD τ).loc main_arg3) :=
  (sum1_keeps_arg3 (W4 m ρ c)).trans (W4_arg3 m ρ c)
theorem W5_arg4 : W5 m ρ c (Proc.devRef .tc main_arg4) = m ((c : Thread nD τ).loc main_arg4) :=
  (sum1_keeps_arg4 (W4 m ρ c)).trans (W4_arg4 m ρ c)
theorem W5_norm : W5 m ρ c (Proc.devRef .tc main_v7) = norm (m ((c : Thread nD τ).loc main_arg4)) :=
  (sum1_keeps_norm (W4 m ρ c)).trans (W4_norm m ρ c)

/-- Region 1 leaves its output at the scaled product of the clipped sum with the second weight matrix … -/
theorem W6_out : W6 m ρ c (Proc.devRef .tc main_v20)
    = Region1.rowsOut (aggregate (m ((c : Thread nD τ).loc main_arg4)) (gathered
        (Region0.rowsOut (m ((c : Thread nD τ).loc main_arg0)) (m ((c : Thread nD τ).loc main_arg1)) (norm (m ((c : Thread nD τ).loc main_arg4)))) (m ((c : Thread nD τ).loc main_arg3))))
        (m ((c : Thread nD τ).loc main_arg2)) (norm (m ((c : Thread nD τ).loc main_arg4))) := by
  refine (W6_arr m ρ c 3).trans ?_
  rw [Region1.final (V5 m ρ) c]
  show Region1.rowsOut (W5 m ρ c (Proc.devRef .tc main_v19)) (W5 m ρ c (Proc.devRef .tc main_arg2)) (W5 m ρ c (Proc.devRef .tc main_v7)) = _
  rw [W5_sum, W5_arg2, W5_norm]
/-- … and the edges' arrays are as they were. -/
theorem W6_arg3 : W6 m ρ c (Proc.devRef .tc main_arg3) = m ((c : Thread nD τ).loc main_arg3) :=
  (W6_of_ne m ρ c main_arg3 (by decide)).trans (W5_arg3 m ρ c)
theorem W6_arg4 : W6 m ρ c (Proc.devRef .tc main_arg4) = m ((c : Thread nD τ).loc main_arg4) :=
  (W6_of_ne m ρ c main_arg4 (by decide)).trans (W5_arg4 m ρ c)

/-- THE RESULT at the last boundary is the kernel's value of the argument arrays. -/
theorem W8_result : W8 m ρ c (Proc.devRef .tc main_v32)
    = kernelValue (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after (hostOps2_1 (F := Ideal)) (W7 m ρ c) (Proc.devRef .tc main_v32) = _
  rw [relu_result]
  show maximumf (F := Ideal) (φ := .f32) (StableHlo.after (hostOps2 (F := Ideal)) (W6 m ρ c) (Proc.devRef .tc main_v31)) _ = _
  rw [sum2_result, W6_out, W6_arg3, W6_arg4]
  unfold kernelValue relu zeros
  rfl

end Cert.KernelIdeal.Fold

end
-- ==== Proof.RefSide.lean ====
/-
  The idealized reference's result as ONE function of its five argument arrays, named through the same small functions
  as the kernel's: the per-node scale; one layer as the product with a weight matrix, its rows gathered along the
  edges' sources and each multiplied by the gathered scale, summed at the edges' destinations; the clip at zero. The
  reference clips the first layer's sum twice and the second's once.
-/
import proofs.«168087_j18202071400723_2_alg».proof.Proof.Gen.ReferenceIdeal.Run
import Idealize.ShloMosaic.PureOps.Ideal

noncomputable section

namespace Cert.ReferenceIdeal.RefSide

open Cert.ReferenceIdeal Cert.ReferenceIdeal.Gen
open Idealize.ShloMosaic Idealize.ShloMosaic.TcCoe Idealize.SL.Sem

/-- The gathers' start indices: an edge's source, a negative one counted from the end, as a column. -/
def startRows (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The zero array the sums start from and the clip compares with. -/
def zeros : FVec Ideal S50000x64 .f32 :=
  broadcastInDim S50000x64 ![] bcast_S_S50000x64 (constant (F := Ideal) S_ .f32 0x00000000#32)

/-- The per-node scale: the number of edges into the node, at least one, to the power −1/2, as a column. -/
def norm (dst : IVec S800000 32) : FVec Ideal S50000x1 .f32 :=
  Host.powf (F := Ideal)
    (broadcastInDim S50000x1 ![0] bcast_S50000_S50000x1_0
      (maximumf (F := Ideal) (broadcastInDim S50000 ![] bcast_S_S50000 (id (constant (F := Ideal) S_ .f32 0x3F800000#32)))
        (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 dst)
          (broadcastInDim S800000 ![] bcast_S_S800000 (constant (F := Ideal) S_ .f32 0x3F800000#32)))))
    (broadcastInDim S50000x1 ![] bcast_S_S50000x1 (constant (F := Ideal) S_ .f32 0xBF000000#32))

/-- The per-edge rows summed at the edges' destinations. -/
def aggregate (dst : IVec S800000 32) (T : FVec Ideal S800000x64 .f32) : FVec Ideal S50000x64 .f32 :=
  Host.scatterAdd (F := Ideal) scatter_S50000x64_S800000x1_S800000x64_1_0_0_1 zeros
    (broadcastInDim S800000x1 ![0] bcast_S800000_S800000x1_0 dst) T

/-- A layer's per-edge rows: the product's rows gathered along the sources, each times the source's gathered scale. -/
def messages (H : FVec Ideal S50000x64 .f32) (N : FVec Ideal S50000x1 .f32) (src : IVec S800000 32) :
    FVec Ideal S800000x64 .f32 :=
  mulf (F := Ideal) (Host.gather gather_S50000x64_S800000x1_S800000x64_1_0_n_n_0_1_164 H (startRows src))
    (broadcastInDim S800000x64 ![0, 1] bcast_S800000x1_S800000x64_0_1
      (Host.gather gather_S50000x1_S800000x1_S800000x1_1_0_n_n_0_1_11 N (startRows src)))

/-- The clip at zero from below. -/
def relu (A : FVec Ideal S50000x64 .f32) : FVec Ideal S50000x64 .f32 := maximumf (F := Ideal) A zeros

/-- THE REFERENCE'S VALUE. -/
def refValue (feat : FVec Ideal S50000x128 .f32) (W1 : FVec Ideal S128x64 .f32) (W2 : FVec Ideal S64x64 .f32)
    (src dst : IVec S800000 32) : FVec Ideal S50000x64 .f32 :=
  relu (aggregate dst (messages
    (Host.dotGeneral (F := Ideal) dot_S50000x64_S64x64_S50000x64_1_0_0_1_n_n none
      (relu (relu (aggregate dst (messages
        (Host.dotGeneral (F := Ideal) dot_S50000x128_S128x64_S50000x64_1_0_0_1_n_n none feat W1) (norm dst) src)))) W2)
    (norm dst) src))

/-- The reference's generated run, its result named: every weakly fair execution terminates with the result at
    `refValue` of the arguments' launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50)
        = refValue (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

end Cert.ReferenceIdeal.RefSide

end
-- ==== Proof.LibGatherFlatRows.lean ====
/-
  A `stablehlo.gather` that takes whole rows of an `[N, D]` table at a column `[E, 1]` of start indices — what
  `table[idx]` lowers to for a flat index array: offset_dims `[1]`, collapsed_slice_dims `[0]`, start_index_map
  `[0]`, index_vector_dim `1`, slice_sizes `[1, D]`. Result entry `(e, d)` is column `d` of the row named by start
  index `e`, read as a signed integer and clamped into `[0, N − 1]`. General over the extents and the element type.
-/
import Idealize.ShloMosaic.Lib.ValueIdx

noncomputable section

namespace Cert.LibGatherFlatRows

open Idealize.ShloMosaic Idealize.ShloMosaic.ValueIdx

variable {α : Type}

/-- Those dimension numbers for a table `[N, D]`, start indices `[E, 1]` and result `[E, D]`; their conditions `wf` are
    decided on a program's literal shapes. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index names: the index word read signed, clamped into `[0, N − 1]`. -/
def rowOf {w : Nat} (N : Nat) (hN : 0 < N) (b : BitVec w) : Fin N := ⟨min b.toInt.toNat (N - 1), by omega⟩

/-- An axis of a rank-2 shape is its first or its second. -/
private theorem axis_cases (a : Fin 2) : a = 0 ∨ a = 1 := by fin_cases a <;> simp

/-- THE GATHER READ AT `(e, d)`: column `d` of the row the start index `idx[e, 0]` names. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowDims N D E wf) x idx (ix2 e d) = x (ix2 (rowOf N hN (idx (ix2 e (0 : Fin 1)))) d) := by
  unfold Host.gather
  congr 1
  funext a
  refine Fin.ext ?_
  show (rowDims N D E wf).start (ix2 e d) idx a + (rowDims N D E wf).batchCoord (ix2 e d) a
      + (rowDims N D E wf).offCoord (ix2 e d) a = _
  rw [GatherDims.batchCoord_eq_zero _ _ _ List.not_mem_nil]
  rcases axis_cases a with rfl | rfl
  ·
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e d) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  ·
    unfold GatherDims.start
    rw [dif_neg (show (1 : Fin 2) ∉ (rowDims N D E wf).startIndexMap from
      fun h => absurd (congrArg Fin.val (List.mem_singleton.mp h)) Nat.one_ne_zero)]
    simp only [Nat.zero_add]
    have hk : (1 : Fin 2) ∈ (rowDims N D E wf).sKept :=
      ((rowDims N D E wf).mem_sKept 1).mpr
        ⟨fun h => absurd (congrArg Fin.val (List.mem_singleton.mp h)) Nat.one_ne_zero, List.not_mem_nil⟩
    unfold GatherDims.offCoord
    rw [dif_pos hk]
    rfl

/-- The row does not depend on the column read: two such gathers at one column of start indices, of tables with the
    same number of rows, read the same row. -/
theorem gather_rows_row {N D D' E w : Nat} (hN : 0 < N)
    (wf : GatherDims.WF ⟨2, ![N, D]⟩ ⟨2, ![E, 1]⟩ ⟨2, ![E, D]⟩ [1] [0] [] [0] [] 1 ![1, D])
    (wf' : GatherDims.WF ⟨2, ![N, D']⟩ ⟨2, ![E, 1]⟩ ⟨2, ![E, D']⟩ [1] [0] [] [0] [] 1 ![1, D'])
    (x : (⟨2, ![N, D]⟩ : Shape).Idx → α) (x' : (⟨2, ![N, D']⟩ : Shape).Idx → α) (idx : IVec ⟨2, ![E, 1]⟩ w)
    (e : Fin E) (d : Fin D) (d' : Fin D') :
    ∃ r : Fin N, Host.gather (rowDims N D E wf) x idx (ix2 e d) = x (ix2 r d)
      ∧ Host.gather (rowDims N D' E wf') x' idx (ix2 e d') = x' (ix2 r d') :=
  ⟨rowOf N hN (idx (ix2 e (0 : Fin 1))), gather_rows_apply hN wf x idx e d, gather_rows_apply hN wf' x' idx e d'⟩

end Cert.LibGatherFlatRows

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«168087_j18202071400723_2_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.Bridge.lean ====
/-
  THE TWO VALUES ARE ONE FUNCTION. The kernel scales each node's row of a layer's product by the node's scale BEFORE
  gathering the rows along the edges' sources; the reference gathers the product's rows and the scale column
  separately and multiplies per edge. A gather reads, for edge `e`, the row named by the edge's source — the same row
  of the product and of the scale column — so both give, at `(e, j)`, the product's entry `(row e, j)` times the scale
  of `row e`: a pointwise identity, with no law of the extended reals beyond the product itself. The product is the
  same sum over the contraction index on both sides (a matrix product into the zero accumulator against the host's
  `dot_general`), the sums at the destinations are the same function of equal per-edge rows, and clipping at zero
  twice is clipping once (`max (max a 0) 0 = max a 0`).
-/
import proofs.«168087_j18202071400723_2_alg».proof.Proof.FoldDefs
import proofs.«168087_j18202071400723_2_alg».proof.Proof.RefSide
import proofs.«168087_j18202071400723_2_alg».proof.Proof.LibGatherFlatRows
import proofs.«168087_j18202071400723_2_alg».proof.Proof.LibPlainDot
import Idealize.ShloMosaic.Lib.Pipeline.Value

noncomputable section

open scoped BigOperators

namespace Cert.Bridge

open Idealize.ShloMosaic Idealize.ShloMosaic.ValueIdx Cert.LibGatherFlatRows

/-! ## The printed dimension numbers are the general ones -/

theorem gatherK_rows : Cert.KernelIdeal.gather_S50000x64_S800000x1_S800000x64_1_0_n_n_0_1_164 = rowDims 50000 64 800000 Cert.KernelIdeal.Gen.gather_S50000x64_S800000x1_S800000x64_1_0_n_n_0_1_164_wf := rfl
theorem gatherR_rows : Cert.ReferenceIdeal.gather_S50000x64_S800000x1_S800000x64_1_0_n_n_0_1_164 = rowDims 50000 64 800000 Cert.ReferenceIdeal.Gen.gather_S50000x64_S800000x1_S800000x64_1_0_n_n_0_1_164_wf := rfl
theorem gatherR_col : Cert.ReferenceIdeal.gather_S50000x1_S800000x1_S800000x1_1_0_n_n_0_1_11 = rowDims 50000 1 800000 Cert.ReferenceIdeal.Gen.gather_S50000x1_S800000x1_S800000x1_1_0_n_n_0_1_11_wf := rfl
theorem dotR1_plain : Cert.ReferenceIdeal.dot_S50000x128_S128x64_S50000x64_1_0_0_1_n_n = DotDims.plain 50000 128 64 := rfl
theorem dotR2_plain : Cert.ReferenceIdeal.dot_S50000x64_S64x64_S50000x64_1_0_0_1_n_n = DotDims.plain 50000 64 64 := rfl

/-- The two programs compute the start indices, the scale and the sums at the destinations by the same operations. -/
theorem startRows_eq (src : IVec ⟨1, ![800000]⟩ 32) : Cert.KernelIdeal.Fold.startRows src = Cert.ReferenceIdeal.RefSide.startRows src := rfl
theorem norm_eq (dst : IVec ⟨1, ![800000]⟩ 32) : Cert.KernelIdeal.Fold.norm dst = Cert.ReferenceIdeal.RefSide.norm dst := rfl

/-! ## Scaling the rows commutes with gathering them -/

/-- If `R` is `H` with each row scaled by the row's entry of the column `N`, then `R`'s rows gathered along the edges'
    sources are `H`'s gathered rows times `N`'s gathered entries, edge by edge. -/
theorem gather_scaled (H : FVec Ideal ⟨2, ![50000, 64]⟩ .f32) (R : FVec Ideal ⟨2, ![50000, 64]⟩ .bf16)
    (N : FVec Ideal ⟨2, ![50000, 1]⟩ .f32) (src : IVec ⟨1, ![800000]⟩ 32)
    (hR : ∀ (n : Fin 50000) (j : Fin 64), R (ix2 n j) = H (ix2 n j) * N (ix2 n (0 : Fin 1))) :
    Cert.KernelIdeal.Fold.gathered R src = Cert.ReferenceIdeal.RefSide.messages H N src := by
  funext y
  obtain ⟨e, j, rfl⟩ : ∃ (e : Fin 800000) (j : Fin 64), y = ix2 e j := ⟨y 0, y 1, eq_ix2 y⟩
  unfold Cert.KernelIdeal.Fold.gathered Cert.ReferenceIdeal.RefSide.messages
  rw [startRows_eq]
  show Host.gather Cert.KernelIdeal.gather_S50000x64_S800000x1_S800000x64_1_0_n_n_0_1_164 R (Cert.ReferenceIdeal.RefSide.startRows src) (ix2 e j)
      = Host.gather Cert.ReferenceIdeal.gather_S50000x64_S800000x1_S800000x64_1_0_n_n_0_1_164 H (Cert.ReferenceIdeal.RefSide.startRows src) (ix2 e j)
        * broadcastInDim Cert.ReferenceIdeal.S800000x64 ![0, 1] Cert.ReferenceIdeal.Gen.bcast_S800000x1_S800000x64_0_1
            (Host.gather Cert.ReferenceIdeal.gather_S50000x1_S800000x1_S800000x1_1_0_n_n_0_1_11 N (Cert.ReferenceIdeal.RefSide.startRows src)) (ix2 e j)
  rw [broadcastInDim_apply _ _ _ (ix2 e j) (ix2 e (0 : Fin 1)) (fun a => by
    match a with
    | ⟨0, _⟩ =>
      show e.val = if (800000 : ℕ) = 1 then 0 else e.val
      rw [if_neg (by decide)]
    | ⟨1, _⟩ => rfl)]
  rw [gatherK_rows, gatherR_rows, gatherR_col,
    gather_rows_apply (by decide : 0 < 50000), gather_rows_apply (by decide : 0 < 50000),
    gather_rows_apply (by decide : 0 < 50000)]
  exact hR _ _

/-! ## The layers -/

/-- Layer 1: region 0's scaled product, gathered, is the reference's per-edge rows. -/
theorem layer1 (feat : FVec Ideal ⟨2, ![50000, 128]⟩ .f32) (W1 : FVec Ideal ⟨2, ![128, 64]⟩ .f32)
    (src dst : IVec ⟨1, ![800000]⟩ 32) :
    Cert.KernelIdeal.Fold.gathered (Cert.KernelIdeal.Region0.rowsOut feat W1 (Cert.KernelIdeal.Fold.norm dst)) src
      = Cert.ReferenceIdeal.RefSide.messages (Host.dotGeneral (F := Ideal) Cert.ReferenceIdeal.dot_S50000x128_S128x64_S50000x64_1_0_0_1_n_n none feat W1) (Cert.ReferenceIdeal.RefSide.norm dst) src :=
  gather_scaled _ _ _ src fun n j => by
    rw [norm_eq, dotR1_plain, Cert.LibPlainDot.dotGeneral_apply]
    rfl

/-- Layer 2: region 1's scaled product of the clipped sum, gathered, is the reference's per-edge rows of the sum
    clipped twice. -/
theorem layer2 (A : FVec Ideal ⟨2, ![50000, 64]⟩ .f32) (W2 : FVec Ideal ⟨2, ![64, 64]⟩ .f32)
    (src dst : IVec ⟨1, ![800000]⟩ 32) :
    Cert.KernelIdeal.Fold.gathered (Cert.KernelIdeal.Region1.rowsOut A W2 (Cert.KernelIdeal.Fold.norm dst)) src
      = Cert.ReferenceIdeal.RefSide.messages (Host.dotGeneral (F := Ideal) Cert.ReferenceIdeal.dot_S50000x64_S64x64_S50000x64_1_0_0_1_n_n none (Cert.ReferenceIdeal.RefSide.relu (Cert.ReferenceIdeal.RefSide.relu A)) W2) (Cert.ReferenceIdeal.RefSide.norm dst) src :=
  gather_scaled _ _ _ src fun n j => by
    rw [norm_eq, dotR2_plain, Cert.LibPlainDot.dotGeneral_apply]
    show (∑ k : Fin 64, max (A (ix2 n k)) (Ideal.ofBits .f32 0x00000000#32) * W2 (ix2 k j)) * Cert.ReferenceIdeal.RefSide.norm dst (ix2 n (0 : Fin 1))
        = (∑ k : Fin 64, max (max (A (ix2 n k)) (Ideal.ofBits .f32 0x00000000#32)) (Ideal.ofBits .f32 0x00000000#32) * W2 (ix2 k j))
          * Cert.ReferenceIdeal.RefSide.norm dst (ix2 n (0 : Fin 1))
    refine congrArg (· * Cert.ReferenceIdeal.RefSide.norm dst (ix2 n (0 : Fin 1))) (Finset.sum_congr rfl fun k _ => ?_)
    rw [max_assoc, max_self]

/-- THE KERNEL'S VALUE IS THE REFERENCE'S, of any five argument arrays. -/
theorem value_eq (feat : FVec Ideal ⟨2, ![50000, 128]⟩ .f32) (W1 : FVec Ideal ⟨2, ![128, 64]⟩ .f32)
    (W2 : FVec Ideal ⟨2, ![64, 64]⟩ .f32) (src dst : IVec ⟨1, ![800000]⟩ 32) :
    Cert.KernelIdeal.Fold.kernelValue feat W1 W2 src dst = Cert.ReferenceIdeal.RefSide.refValue feat W1 W2 src dst := by
  unfold Cert.KernelIdeal.Fold.kernelValue Cert.ReferenceIdeal.RefSide.refValue
  rw [layer1, layer2]
  rfl

end Cert.Bridge

end
-- ==== Proof.lean ====
/-
  The certificate of a two-layer graph convolution: a kernel that computes each layer's dense part (the product with
  the layer's weight matrix, each node's row scaled by the node's in-degree scale, the second layer after clipping at
  zero) in a kernel region and leaves the gather along the edges and the sum at their destinations to the host,
  against a reference that does everything on the host and scales per edge after the gather.
  On the extended reals the two are one function of the five argument arrays (`Cert.Bridge.value_eq`): scaling a row
  before gathering it is scaling the gathered row, and clipping at zero twice is clipping once. The kernel's run with
  its result named is `Cert.KernelIdeal.KRun.run_result` read back through the program's boundaries
  (`Cert.KernelIdeal.Fold.W8_result`); the reference's is its generated run (`Cert.ReferenceIdeal.RefSide.run`). The
  three frames are the generated ones; the idealization rewrote nothing, so `preserves` is trivial.
-/
import proofs.«168087_j18202071400723_2_alg».proof.Defs
import proofs.«168087_j18202071400723_2_alg».proof.Proof.Gen.Kernel
import proofs.«168087_j18202071400723_2_alg».proof.Proof.Gen.Kernel.Frame
import proofs.«168087_j18202071400723_2_alg».proof.Proof.Gen.KernelIdeal
import proofs.«168087_j18202071400723_2_alg».proof.Proof.Gen.KernelIdeal.Frame
import proofs.«168087_j18202071400723_2_alg».proof.Proof.Gen.ReferenceIdeal
import proofs.«168087_j18202071400723_2_alg».proof.Proof.Gen.ReferenceIdeal.Run
import proofs.«168087_j18202071400723_2_alg».proof.Proof.Gen.Pre_finite_inputs
import proofs.«168087_j18202071400723_2_alg».proof.Proof.KRun
import proofs.«168087_j18202071400723_2_alg».proof.Proof.Fold
import proofs.«168087_j18202071400723_2_alg».proof.Proof.RefSide
import proofs.«168087_j18202071400723_2_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.RefSide.run m ρ)

/-- The idealization rewrote no operation. -/
theorem preserves : Cert.preserves_Kernel_KernelIdeal := trivial

/-- From memories that agree on the arguments both idealized programs end with the reference's value of those
    arguments: the kernel's value is that one by `Cert.Bridge.value_eq`. -/
theorem algebraic : Cert.algebraic_KernelIdeal_ReferenceIdeal := by
  intro m ρ m' ρ' _ hagree
  refine ⟨fun c => Cert.ReferenceIdeal.RefSide.refValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨?_, (h c).2⟩) (Cert.KernelIdeal.KRun.run_result m ρ)
    rw [(h c).1, Cert.KernelIdeal.Fold.W8_result m ρ c]
    exact Cert.Bridge.value_eq _ _ _ _ _
  · refine (θ_run Cert.ReferenceIdeal.defs _ _).mono (fun r h c => ⟨?_, (h c).2⟩) (Cert.ReferenceIdeal.RefSide.run m' ρ')
    rw [(h c).1, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
